-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32 : Shape := ⟨4, ![8, 16, 32, 32]⟩
abbrev S64x144 : Shape := ⟨2, ![64, 144]⟩
abbrev S_ : Shape := ⟨0, ![]⟩

class Facts : Prop where
  bcast_S_S8x16x32x32 : S_.BroadcastsInDim S8x16x32x32 (![] : Fin 0 → Fin S8x16x32x32.rank)
  reducesTo_S8x16x32x32_S_d0_1_2_3 : S8x16x32x32.ReducesTo [0, 1, 2, 3] S_
  h_S_ : 0 < S_.numel
  bcast_S_S64x144 : S_.BroadcastsInDim S64x144 (![] : Fin 0 → Fin S64x144.rank)
  reducesTo_S64x144_S_d0_1 : S64x144.ReducesTo [0, 1] S_

variable [Facts]

def fn {F : FTy → Type} [FloatOps F] (main_arg0 : FVec F S8x16x32x32 .f32) (main_arg1 : FVec F S64x144 .f32) : IVec S_ 1 :=
  let main_v0 : FVec F S8x16x32x32 .f32 := Host.absf main_arg0
  let main_cst : FVec F S_ .f32 := constant S_ .f32 0x7F800000#32
  let main_v1 : FVec F S8x16x32x32 .f32 := broadcastInDim S8x16x32x32 ![] bcast_S_S8x16x32x32 main_cst
  let main_v2 : IVec S8x16x32x32 1 := cmpf .olt main_v0 main_v1
  let main_c : IVec S_ 1 := constantI S_ 1 1#1
  let main_v3 : IVec S_ 1 := (fun x v => Host.reduce IntOp.andi x v reducesTo_S8x16x32x32_S_d0_1_2_3 h_S_) main_v2 main_c
  let main_v4 : FVec F S64x144 .f32 := Host.absf main_arg1
  let main_cst_0 : FVec F S_ .f32 := constant S_ .f32 0x7F800000#32
  let main_v5 : FVec F S64x144 .f32 := broadcastInDim S64x144 ![] bcast_S_S64x144 main_cst_0
  let main_v6 : IVec S64x144 1 := cmpf .olt main_v4 main_v5
  let main_c_1 : IVec S_ 1 := constantI S_ 1 1#1
  let main_v7 : IVec S_ 1 := (fun x v => Host.reduce IntOp.andi x v reducesTo_S64x144_S_d0_1 h_S_) main_v6 main_c_1
  let main_v8 : IVec S_ 1 := andi main_v3 main_v7
  main_v8
-- ==== Kernel.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S64x144x1 : Shape := ⟨3, ![64, 144, 1]⟩
abbrev S8x64x1024 : Shape := ⟨3, ![8, 64, 1024]⟩
abbrev S1x144x1024 : Shape := ⟨3, ![1, 144, 1024]⟩
abbrev S1x64x1024 : Shape := ⟨3, ![1, 64, 1024]⟩
abbrev S64x1024 : Shape := ⟨2, ![64, 1024]⟩
abbrev S64x16x1 : Shape := ⟨3, ![64, 16, 1]⟩
abbrev S1x16x1024 : Shape := ⟨3, ![1, 16, 1024]⟩
abbrev S16x1024 : Shape := ⟨2, ![16, 1024]⟩
abbrev S64x16x1024 : Shape := ⟨3, ![64, 16, 1024]⟩
abbrev S8x64x32x32 : Shape := ⟨4, ![8, 64, 32, 32]⟩

abbrev nBuf : Space → Nat
  | .hbm => 31
  | .vmem => 6
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .i32⟩
  | .hbm, ⟨3, _⟩ => ⟨S_, .f32⟩
  | .hbm, ⟨4, _⟩ => ⟨S8x16x34x34, .f32⟩
  | .hbm, ⟨5, _⟩ => ⟨S8x16x32x32, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x1x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x9x32x32, .f32⟩
  | .hbm, ⟨24, _⟩ => ⟨S8x144x1024, .f32⟩
  | .hbm, ⟨25, _⟩ => ⟨S_, .f32⟩
  | .hbm, ⟨26, _⟩ => ⟨S64x144, .f32⟩
  | .hbm, ⟨27, _⟩ => ⟨S64x144, .f32⟩
  | .hbm, ⟨28, _⟩ => ⟨S64x144x1, .f32⟩
  | .hbm, ⟨29, _⟩ => ⟨S8x64x1024, .f32⟩
  | .hbm, ⟨30, _⟩ => ⟨S8x64x32x32, .f32⟩
  | .local _ .vmem, ⟨0, _⟩ => ⟨S64x144x1, .f32⟩
  | .local _ .vmem, ⟨1, _⟩ => ⟨S1x144x1024, .f32⟩
  | .local _ .vmem, ⟨2, _⟩ => ⟨S1x144x1024, .f32⟩
  | .local _ .vmem, ⟨3, _⟩ => ⟨S1x64x1024, .f32⟩
  | .local _ .vmem, ⟨4, _⟩ => ⟨S1x64x1024, .f32⟩
  | .local _ .vmem, ⟨5, _⟩ => ⟨S64x1024, .f32⟩
  | _, _ => ⟨S8x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c16_i32 : BitVec 32 := 16#32
  let v4 : BitVec 32 := Scalar.muli c0_i32 c16_i32
  v4
def k0_off1 (c0_i32 : BitVec 32) : Fin 3 → Nat :=
  let c0_1 : Index := 0#32
  let c16_i32 : BitVec 32 := 16#32
  let v4 : BitVec 32 := Scalar.muli c0_i32 c16_i32
  let v5 : BitVec 32 := v4
  let v6 : Index := Scalar.indexCast v5
  let c0_2 : Index := 0#32
  ![0, v6.toNat, 0]
def k0_off2 (c0_i32 : BitVec 32) : Fin 3 → Nat :=
  let c0_3 : Index := 0#32
  let c16_i32 : BitVec 32 := 16#32
  let v4 : BitVec 32 := Scalar.muli c0_i32 c16_i32
  let v5 : BitVec 32 := v4
  let v9 : Index := Scalar.indexCast v5
  let c0_4 : Index := 0#32
  ![0, v9.toNat, 0]
def k0_mult2 : BitVec 32 :=
  let c1_i32 : BitVec 32 := 1#32
  let c16_i32_16 : BitVec 32 := 16#32
  let v41 : BitVec 32 := Scalar.muli c1_i32 c16_i32_16
  v41
def k0_mult3 : BitVec 32 :=
  let c2_i32 : BitVec 32 := 2#32
  let c16_i32_32 : BitVec 32 := 16#32
  let v78 : BitVec 32 := Scalar.muli c2_i32 c16_i32_32
  v78
def k0_mult4 : BitVec 32 :=
  let c3_i32 : BitVec 32 := 3#32
  let c16_i32_48 : BitVec 32 := 16#32
  let v115 : BitVec 32 := Scalar.muli c3_i32 c16_i32_48
  v115
def k0_mult5 : BitVec 32 :=
  let c4_i32 : BitVec 32 := 4#32
  let c16_i32_64 : BitVec 32 := 16#32
  let v152 : BitVec 32 := Scalar.muli c4_i32 c16_i32_64
  v152
def k0_mult6 : BitVec 32 :=
  let c5_i32 : BitVec 32 := 5#32
  let c16_i32_80 : BitVec 32 := 16#32
  let v189 : BitVec 32 := Scalar.muli c5_i32 c16_i32_80
  v189
def k0_mult7 : BitVec 32 :=
  let c6_i32 : BitVec 32 := 6#32
  let c16_i32_96 : BitVec 32 := 16#32
  let v226 : BitVec 32 := Scalar.muli c6_i32 c16_i32_96
  v226
def k0_mult8 : BitVec 32 :=
  let c7_i32 : BitVec 32 := 7#32
  let c16_i32_112 : BitVec 32 := 16#32
  let v263 : BitVec 32 := Scalar.muli c7_i32 c16_i32_112
  v263
def k0_mult9 : BitVec 32 :=
  let c8_i32 : BitVec 32 := 8#32
  let c16_i32_128 : BitVec 32 := 16#32
  let v300 : BitVec 32 := Scalar.muli c8_i32 c16_i32_128
  v300
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x144x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S_S64x144 : S_.BroadcastsInDim S64x144 (![] : Fin 0 → Fin S64x144.rank)
  shapeCasts_S64x144_S64x144x1 : S64x144.ShapeCasts S64x144x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S64x16x1 : 0 < S64x16x1.numel
  shapeCasts_S64x16x1_S64x16x1 : S64x16x1.ShapeCasts S64x16x1
  h_S1x16x1024 : 0 < S1x16x1024.numel
  shapeCasts_S1x16x1024_S16x1024 : S1x16x1024.ShapeCasts S16x1024
  shapeCasts_S16x1024_S1x16x1024 : S16x1024.ShapeCasts S1x16x1024
  broadcasts_S1x16x1024_S64x16x1024 : S1x16x1024.Broadcasts S64x16x1024
  broadcasts_S64x16x1_S64x16x1024 : S64x16x1.Broadcasts S64x16x1024
  reduces_S64x16x1024_S64x1024 : S64x16x1024.Reduces [1] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S8x64x1024_S8x64x32x32 : S8x64x1024.ShapeCasts S8x64x32x32
  hrank0 : 0 < grid0.rank
  k0_mult1_dvd : 16 ∣ k0_mult1.toNat
  k0_off1_inb : ∀ (r : Fin 9), ∀ a, (k0_off1 (BitVec.ofNat 32 r.val)) a + S64x16x1.size a ≤ S64x144x1.size a
  k0_off2_inb : ∀ (r : Fin 9), ∀ a, (k0_off2 (BitVec.ofNat 32 r.val)) a + S1x16x1024.size a ≤ S1x144x1024.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  k0_mult9_dvd : 16 ∣ k0_mult9.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x144x1.size a ≤ S64x144x1.size a
  hwx0_0 : ∀ i : grid0.Coords, EltTy.bits .f32 = 32 ∨ (Rect.block (s := S64x144x1) S64x144x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x1024.size a ≤ S8x144x1024.size a
  hwx0_1 : ∀ i : grid0.Coords, EltTy.bits .f32 = 32 ∨ (Rect.block (s := S8x144x1024) S1x144x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S8x64x1024.size a
  hwx0_2 : ∀ i : grid0.Coords, EltTy.bits .f32 = 32 ∨ (Rect.block (s := S8x64x1024) S1x64x1024.size (cc0_transform_2 i) (hinb0_2 i)).WholeWords (EltTy.packing .f32)

variable [Facts₀]

abbrev win0_0 : Pipeline.Window sig grid0 :=
  Pipeline.Window.ofSpec (Memref.whole main_v23) S64x144x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x144x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x1x144x1024 : Shape := ⟨4, ![8, 1, 144, 1024]⟩
abbrev S1x64x144x1 : Shape := ⟨4, ![1, 64, 144, 1]⟩
abbrev S8x64x144x1024 : Shape := ⟨4, ![8, 64, 144, 1024]⟩
abbrev S8x64x1024 : Shape := ⟨3, ![8, 64, 1024]⟩
abbrev S8x64x32x32 : Shape := ⟨4, ![8, 64, 32, 32]⟩

abbrev nBuf : Space → Nat
  | .hbm => 65
  | .vmem => 0
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .i32⟩
  | .hbm, ⟨3, _⟩ => ⟨S_, .f32⟩
  | .hbm, ⟨4, _⟩ => ⟨S8x16x34x34, .f32⟩
  | .hbm, ⟨5, _⟩ => ⟨S8x16x32x32, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x1x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x9x32x32, .f32⟩
  | .hbm, ⟨24, _⟩ => ⟨S8x144x1024, .f32⟩
  | .hbm, ⟨25, _⟩ => ⟨S8x1x144x1024, .f32⟩
  | .hbm, ⟨26, _⟩ => ⟨S1x64x144x1, .f32⟩
  | .hbm, ⟨27, _⟩ => ⟨S8x64x144x1024, .f32⟩
  | .hbm, ⟨28, _⟩ => ⟨S8x64x144x1024, .f32⟩
  | .hbm, ⟨29, _⟩ => ⟨S8x64x144x1024, .f32⟩
  | .hbm, ⟨30, _⟩ => ⟨S_, .f32⟩
  | .hbm, ⟨31, _⟩ => ⟨S8x64x144x1024, .f32⟩
  | .hbm, ⟨32, _⟩ => ⟨S8x64x144x1024, .f32⟩
  | .hbm, ⟨33, _⟩ => ⟨S_, .f32⟩
  | .hbm, ⟨34, _⟩ => ⟨S8x64x144x1024, .f32⟩
  | .hbm, ⟨35, _⟩ => ⟨S8x64x144x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x64x144x1024, .f32⟩
  | .hbm, ⟨40, _⟩ => ⟨S8x64x144x1024, .f32⟩
  | .hbm, ⟨41, _⟩ => ⟨S_, .f32⟩
  | .hbm, ⟨42, _⟩ => ⟨S8x64x144x1024, .f32⟩
  | .hbm, ⟨43, _⟩ => ⟨S8x64x144x1024, .f32⟩
  | .hbm, ⟨44, _⟩ => ⟨S8x64x144x1024, .f32⟩
  | .hbm, ⟨45, _⟩ => ⟨S8x64x144x1024, .f32⟩
  | .hbm, ⟨46, _⟩ => ⟨S8x64x144x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x64x144x1024, .f32⟩
  | .hbm, ⟨51, _⟩ => ⟨S8x64x144x1024, .f32⟩
  | .hbm, ⟨52, _⟩ => ⟨S_, .f32⟩
  | .hbm, ⟨53, _⟩ => ⟨S8x64x144x1024, .f32⟩
  | .hbm, ⟨54, _⟩ => ⟨S8x64x144x1024, .f32⟩
  | .hbm, ⟨55, _⟩ => ⟨S8x64x144x1024, .f32⟩
  | .hbm, ⟨56, _⟩ => ⟨S8x64x144x1024, .f32⟩
  | .hbm, ⟨57, _⟩ => ⟨S8x64x144x1024, .f32⟩
  | .hbm, ⟨58, _⟩ => ⟨S8x64x144x1024, .f32⟩
  | .hbm, ⟨59, _⟩ => ⟨S_, .f32⟩
  | .hbm, ⟨60, _⟩ => ⟨S8x64x144x1024, .f32⟩
  | .hbm, ⟨61, _⟩ => ⟨S8x64x144x1024, .f32⟩
  | .hbm, ⟨62, _⟩ => ⟨S_, .f32⟩
  | .hbm, ⟨63, _⟩ => ⟨S8x64x1024, .f32⟩
  | .hbm, ⟨64, _⟩ => ⟨S8x64x32x32, .f32⟩
  | _, _ => ⟨S8x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S8x144x1024_S8x1x144x1024_0_2_3 : S8x144x1024.BroadcastsInDim S8x1x144x1024 (![0, 2, 3] : Fin 3 → Fin S8x1x144x1024.rank)
  bcast_S64x144_S1x64x144x1_1_2 : S64x144.BroadcastsInDim S1x64x144x1 (![1, 2] : Fin 2 → Fin S1x64x144x1.rank)
  bcast_S8x1x144x1024_S8x64x144x1024_0_1_2_3 : S8x1x144x1024.BroadcastsInDim S8x64x144x1024 (![0, 1, 2, 3] : Fin 4 → Fin S8x64x144x1024.rank)
  bcast_S1x64x144x1_S8x64x144x1024_0_1_2_3 : S1x64x144x1.BroadcastsInDim S8x64x144x1024 (![0, 1, 2, 3] : Fin 4 → Fin S8x64x144x1024.rank)
  bcast_S_S8x64x144x1024 : S_.BroadcastsInDim S8x64x144x1024 (![] : Fin 0 → Fin S8x64x144x1024.rank)
  reducesTo_S8x64x144x1024_S8x64x1024_d2 : S8x64x144x1024.ReducesTo [2] S8x64x1024
  shapeCasts_S8x64x1024_S8x64x32x32 : S8x64x1024.ShapeCasts S8x64x32x32

variable [Facts₀]

class Facts : Prop extends Facts₀ where

variable [Facts]
-- ==== Proof.Kernel.BodyRun.lean ====
/-
  The kernel body of `Kernel` on whole staging memrefs, at any float instance: it zeroes the accumulator
  scratch, adds to it nine times (one chunk of sixteen contraction indices each: the chunk's sixteen rows of
  the patch block and the matching sixteen columns of the scaled weights), and stores the accumulator times a
  constant into the output block. The run is symbolic; what each buffer ends with is recorded as the list of
  its stores (last first), found while the body is run.
-/
import proofs.«173415_j27144193310998_2_alg».proof.Proof.Gen.Kernel.Launch
import proofs.«173415_j27144193310998_2_alg».proof.Proof.Gen.Kernel.Skeleton
import proofs.«173415_j27144193310998_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run. Given the weight block `x0` and the patch block `x1` in their staging memrefs, the output
    block's memref and the accumulator scratch at anything, the body runs to its continuation with the two
    inputs as they were, the output memref with the stores `L2` written and the scratch with the stores `LS`
    written. Both lists are found by the run. -/
noncomputable def bodyRun (c : Dev nD) (i : grid0.Coords)
    (arg1 : Memref sig .tc .vmem S64x144x1 .f32) (harg1 : arg1.IsWhole)
    (arg2 : Memref sig .tc .vmem S1x144x1024 .f32) (harg2 : arg2.IsWhole)
    (arg3 : Memref sig .tc .vmem S1x64x1024 .f32) (harg3 : arg3.IsWhole)
    (arg4 : Memref sig .tc .vmem S64x1024 .f32) (harg4 : arg4.IsWhole)
    (x0 : Vec F S64x144x1 .f32) (x1 : Vec F S1x144x1024 .f32) :
    Σ' (L2 : List (View.Piece (Elt F) S1x64x1024 .f32)), { LS : List (View.Piece (Elt F) S64x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS)) -∗ K ⟨⟩))
          ⊢ wp frame (wpE (defs₀ (F := F)) Variants.none c none) E (cc0__ekv_kernel i arg1 harg1 arg2 harg2 arg3 harg3 arg4 harg4) K } := by
  refine ⟨?_, ?_, fun E K => ?run⟩
  case run =>
    simp only [cc0__ekv_kernel_eq_skeleton]; unfold cc0__ekv_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

end Cert.Kernel.Hand

end
-- ==== Proof.Kernel.Region.lean ====
/-
  The one region of `Kernel` inside its host program, at any float instance.

  The host lines before the region build the patch array (a zero border round every image, the nine shifted
  copies of it, stacked and flattened to [8, 144, 1024]) and the scaled weights ([64, 144, 1]); the region runs
  the body once per image; one host line after it views the [8, 64, 1024] result as [8, 64, 32, 32]. Stated here:
  what the region finds in its three arrays, that the body's run meets the pipeline's obligation at every grid
  point with the output block named (the body's stores read back), the run of the whole program with every array
  named at its end, and that the two argument arrays end as they started.
-/
import proofs.«173415_j27144193310998_2_alg».proof.Proof.Kernel.BodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines round the region -/

/-- Core `c`'s buffers when the region is entered: the launch contents after the three stretches of host lines. -/
abbrev V0 (c : Dev nD) : Valuation τ sig (Elt F) := StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the region, one more host line. It reduces to the region continued by that line,
    entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches only the region's arrays and buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays (it writes the program's result, which is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The line after the region does not write the first argument either, and the region does not stage it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' staging buffer holds the whole weight array at every point (fetched at the first, left in place after). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The patches' staging buffer holds image `t`'s patch block at point `t`. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S64x144x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x144x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1024 .f32 := win0_2.stage (cfg0.slots t 2)
abbrev hs2 (t : Fin cfg0.N) : (ms2 t).IsWhole := hstage0_2 ((cfg0.slots t 2).cast nbuf0_2)
/-- The accumulator scratch. -/
abbrev accM : Memref sig .tc .vmem S64x1024 .f32 := Memref.whole cc0_scratch0
/-- One staging buffer of the output window, through which the output block's contents are stated. -/
abbrev outV : View sig .tc .vmem S1x64x1024 .f32 := (Memref.whole cc0_stg2_0 : Memref sig .tc .vmem S1x64x1024 .f32).view

/-- What the region keeps between points: the scratch at anything and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The output block -/

/-- The body's stores into the output block cover it (there is one, of the whole block). -/
theorem out_cover (c : Dev nD) (i : grid0.Coords)
    (arg1 : Memref sig .tc .vmem S64x144x1 .f32) (harg1 : arg1.IsWhole) (arg2 : Memref sig .tc .vmem S1x144x1024 .f32) (harg2 : arg2.IsWhole)
    (arg3 : Memref sig .tc .vmem S1x64x1024 .f32) (harg3 : arg3.IsWhole) (arg4 : Memref sig .tc .vmem S64x1024 .f32) (harg4 : arg4.IsWhole)
    (x0 : Vec F S64x144x1 .f32) (x1 : Vec F S1x144x1024 .f32) (y : S1x64x1024.Idx) :
    ∃ pc ∈ (bodyRun c i arg1 harg1 arg2 harg2 arg3 harg3 arg4 harg4 x0 x1).1, y ∈ pc.1.set :=
  View.cover_of_tiledL (bodyRun c i arg1 harg1 arg2 harg2 arg3 harg3 arg4 harg4 x0 x1).1 S1x64x1024.size (by sl_kernel_rfl) y

/-- What the body leaves in the output block: its stores read back. -/
def outBlock (c : Dev nD) (i : grid0.Coords)
    (arg1 : Memref sig .tc .vmem S64x144x1 .f32) (harg1 : arg1.IsWhole) (arg2 : Memref sig .tc .vmem S1x144x1024 .f32) (harg2 : arg2.IsWhole)
    (arg3 : Memref sig .tc .vmem S1x64x1024 .f32) (harg3 : arg3.IsWhole) (arg4 : Memref sig .tc .vmem S64x1024 .f32) (harg4 : arg4.IsWhole)
    (x0 : Vec F S64x144x1 .f32) (x1 : Vec F S1x144x1024 .f32) : Vec F S1x64x1024 .f32 :=
  outV.read (Elt F) (outV.writes (Elt F) outV.junk (bodyRun c i arg1 harg1 arg2 harg2 arg3 harg3 arg4 harg4 x0 x1).1)

/-! ## The proof data of the region -/

/-- On core `c`: the arrays as the region finds them; after the body at point `t` the two inputs' buffers at their blocks
    and the output's at `outBlock` of them; between points the scratch at anything; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock c (grid0.coords t) (ms0 t) (hs0 t) (ms1 t) (hs1 t) (ms2 t) (hs2 t) accM (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t
    = outBlock c (grid0.coords t) (ms0 t) (hs0 t) (ms1 t) (hs1 t) (ms2 t) (hs2 t) accM (Memref.isWhole_whole _) (iblk m c 0 t) (iblk m c 1 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body meets the pipeline's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- At any point the inputs' memrefs hold their blocks, so the body's run applies; it hands the inputs back as they
    were, the output block with its stores written (which cover it, so it reads back as `outBlock`) and the scratch
    at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  unfold outBlock
  iintro ⟨⟨HS, Hg⟩, Ho, ⟨%d0, H0⟩, ⟨%d1, H1⟩, ⟨%d2, H2⟩⟩
  iapply ((bodyRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (out_cover c _ _ _ _ _ _ _ _ _ _ _)

/-- The pipeline's obligation at every point. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- Every weakly fair execution of the program terminates, and at the end each of the region's arrays holds what the
    pipeline's write-backs leave (`Dat.arrAt`) and every other buffer what the line after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to the end and its two arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Hand

end
-- ==== Proof.KernelIdeal.BodyRun.lean ====
/-
  The kernel body of `KernelIdeal` on whole staging memrefs, at any float instance: it zeroes the accumulator
  scratch, adds to it nine times (one chunk of sixteen contraction indices each: the chunk's sixteen rows of
  the patch block and the matching sixteen columns of the scaled weights), and stores the accumulator times a
  constant into the output block. The run is symbolic; what each buffer ends with is recorded as the list of
  its stores (last first), found while the body is run.
-/
import proofs.«173415_j27144193310998_2_alg».proof.Proof.Gen.KernelIdeal.Launch
import proofs.«173415_j27144193310998_2_alg».proof.Proof.Gen.KernelIdeal.Skeleton
import proofs.«173415_j27144193310998_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run. Given the weight block `x0` and the patch block `x1` in their staging memrefs, the output
    block's memref and the accumulator scratch at anything, the body runs to its continuation with the two
    inputs as they were, the output memref with the stores `L2` written and the scratch with the stores `LS`
    written. Both lists are found by the run. -/
noncomputable def bodyRun (c : Dev nD) (i : grid0.Coords)
    (arg1 : Memref sig .tc .vmem S64x144x1 .f32) (harg1 : arg1.IsWhole)
    (arg2 : Memref sig .tc .vmem S1x144x1024 .f32) (harg2 : arg2.IsWhole)
    (arg3 : Memref sig .tc .vmem S1x64x1024 .f32) (harg3 : arg3.IsWhole)
    (arg4 : Memref sig .tc .vmem S64x1024 .f32) (harg4 : arg4.IsWhole)
    (x0 : Vec F S64x144x1 .f32) (x1 : Vec F S1x144x1024 .f32) :
    Σ' (L2 : List (View.Piece (Elt F) S1x64x1024 .f32)), { LS : List (View.Piece (Elt F) S64x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS)) -∗ K ⟨⟩))
          ⊢ wp frame (wpE (defs₀ (F := F)) Variants.none c none) E (cc0__ekv_kernel i arg1 harg1 arg2 harg2 arg3 harg3 arg4 harg4) K } := by
  refine ⟨?_, ?_, fun E K => ?run⟩
  case run =>
    simp only [cc0__ekv_kernel_eq_skeleton]; unfold cc0__ekv_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

end Cert.KernelIdeal.Hand

end
-- ==== Proof.KernelIdeal.Region.lean ====
/-
  The one region of `KernelIdeal` inside its host program, at any float instance.

  The host lines before the region build the patch array (a zero border round every image, the nine shifted
  copies of it, stacked and flattened to [8, 144, 1024]) and the scaled weights ([64, 144, 1]); the region runs
  the body once per image; one host line after it views the [8, 64, 1024] result as [8, 64, 32, 32]. Stated here:
  what the region finds in its three arrays, that the body's run meets the pipeline's obligation at every grid
  point with the output block named (the body's stores read back), the run of the whole program with every array
  named at its end, and that the two argument arrays end as they started.
-/
import proofs.«173415_j27144193310998_2_alg».proof.Proof.KernelIdeal.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines round the region -/

/-- Core `c`'s buffers when the region is entered: the launch contents after the three stretches of host lines. -/
abbrev V0 (c : Dev nD) : Valuation τ sig (Elt F) := StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the region, one more host line. It reduces to the region continued by that line,
    entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches only the region's arrays and buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays (it writes the program's result, which is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The line after the region does not write the first argument either, and the region does not stage it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' staging buffer holds the whole weight array at every point (fetched at the first, left in place after). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The patches' staging buffer holds image `t`'s patch block at point `t`. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S64x144x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x144x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1024 .f32 := win0_2.stage (cfg0.slots t 2)
abbrev hs2 (t : Fin cfg0.N) : (ms2 t).IsWhole := hstage0_2 ((cfg0.slots t 2).cast nbuf0_2)
/-- The accumulator scratch. -/
abbrev accM : Memref sig .tc .vmem S64x1024 .f32 := Memref.whole cc0_scratch0
/-- One staging buffer of the output window, through which the output block's contents are stated. -/
abbrev outV : View sig .tc .vmem S1x64x1024 .f32 := (Memref.whole cc0_stg2_0 : Memref sig .tc .vmem S1x64x1024 .f32).view

/-- What the region keeps between points: the scratch at anything and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The output block -/

/-- The body's stores into the output block cover it (there is one, of the whole block). -/
theorem out_cover (c : Dev nD) (i : grid0.Coords)
    (arg1 : Memref sig .tc .vmem S64x144x1 .f32) (harg1 : arg1.IsWhole) (arg2 : Memref sig .tc .vmem S1x144x1024 .f32) (harg2 : arg2.IsWhole)
    (arg3 : Memref sig .tc .vmem S1x64x1024 .f32) (harg3 : arg3.IsWhole) (arg4 : Memref sig .tc .vmem S64x1024 .f32) (harg4 : arg4.IsWhole)
    (x0 : Vec F S64x144x1 .f32) (x1 : Vec F S1x144x1024 .f32) (y : S1x64x1024.Idx) :
    ∃ pc ∈ (bodyRun c i arg1 harg1 arg2 harg2 arg3 harg3 arg4 harg4 x0 x1).1, y ∈ pc.1.set :=
  View.cover_of_tiledL (bodyRun c i arg1 harg1 arg2 harg2 arg3 harg3 arg4 harg4 x0 x1).1 S1x64x1024.size (by sl_kernel_rfl) y

/-- What the body leaves in the output block: its stores read back. -/
def outBlock (c : Dev nD) (i : grid0.Coords)
    (arg1 : Memref sig .tc .vmem S64x144x1 .f32) (harg1 : arg1.IsWhole) (arg2 : Memref sig .tc .vmem S1x144x1024 .f32) (harg2 : arg2.IsWhole)
    (arg3 : Memref sig .tc .vmem S1x64x1024 .f32) (harg3 : arg3.IsWhole) (arg4 : Memref sig .tc .vmem S64x1024 .f32) (harg4 : arg4.IsWhole)
    (x0 : Vec F S64x144x1 .f32) (x1 : Vec F S1x144x1024 .f32) : Vec F S1x64x1024 .f32 :=
  outV.read (Elt F) (outV.writes (Elt F) outV.junk (bodyRun c i arg1 harg1 arg2 harg2 arg3 harg3 arg4 harg4 x0 x1).1)

/-! ## The proof data of the region -/

/-- On core `c`: the arrays as the region finds them; after the body at point `t` the two inputs' buffers at their blocks
    and the output's at `outBlock` of them; between points the scratch at anything; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock c (grid0.coords t) (ms0 t) (hs0 t) (ms1 t) (hs1 t) (ms2 t) (hs2 t) accM (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t
    = outBlock c (grid0.coords t) (ms0 t) (hs0 t) (ms1 t) (hs1 t) (ms2 t) (hs2 t) accM (Memref.isWhole_whole _) (iblk m c 0 t) (iblk m c 1 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body meets the pipeline's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- At any point the inputs' memrefs hold their blocks, so the body's run applies; it hands the inputs back as they
    were, the output block with its stores written (which cover it, so it reads back as `outBlock`) and the scratch
    at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  unfold outBlock
  iintro ⟨⟨HS, Hg⟩, Ho, ⟨%d0, H0⟩, ⟨%d1, H1⟩, ⟨%d2, H2⟩⟩
  iapply ((bodyRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (out_cover c _ _ _ _ _ _ _ _ _ _ _)

/-- The pipeline's obligation at every point. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- Every weakly fair execution of the program terminates, and at the end each of the region's arrays holds what the
    pipeline's write-backs leave (`Dat.arrAt`) and every other buffer what the line after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to the end and its two arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.DiodeSum.lean ====
/-
  The scalar mathematics of the diode layer, over the extended reals.

  For a patch entry p and a weight w both programs form a = (p - w) * s (the kernel as p * s - w * s), clamp it to
  [-30, 30], take soft(a) = log(1 + exp(a)), and contribute soft(a)^2 - soft(a - d)^2 to entry (image, output channel,
  pixel); the contributions of the 144 contraction indices are added up and scaled by a gain g. The reference scales each
  contribution and adds the 144 of them at once; the kernel adds them in nine groups of sixteen onto a zeroed
  accumulator and scales the total. Two laws join the two: a nonnegative real factor moves across a difference and
  across a finite sum of extended reals (no finiteness of the summands is needed), and a sum over 144 indices is
  the sum of its nine consecutive blocks of sixteen.
-/
import Idealize.ShloMosaic.PureOps.Ideal
import Idealize.ShloMosaic.PureOps.Ideal.Laws
import proofs.«173415_j27144193310998_2_alg».proof.Proof.LibBlockSum

noncomputable section

namespace Cert.Ekv

open Idealize.ShloMosaic

/-- The scale s = f32(1 / (1.5 * 0.026)). -/
def cScale : EReal := Ideal.ofBits .f32 0x41CD20D2#32
/-- The shift d = f32(0.1 / (1.5 * 0.026)). -/
def cShift : EReal := Ideal.ofBits .f32 0x40241A42#32
/-- The clamp's lower bound, -30. -/
def cLo : EReal := Ideal.ofBits .f32 0xC1F00000#32
/-- The clamp's upper bound, 30. -/
def cHi : EReal := Ideal.ofBits .f32 0x41F00000#32
/-- The gain g = f32(0.0005625). -/
def cGain : EReal := Ideal.ofBits .f32 0x3A1374BC#32

/-- log(1 + exp(·)) of the argument clamped to [-30, 30]. -/
def soft (a : EReal) : EReal := Ideal.log1p (Ideal.exp (min cHi (max cLo a)))

/-- One contraction index's contribution. -/
def diode (a : EReal) : EReal := soft a * soft a - soft (a - cShift) * soft (a - cShift)

/-- An f32 pattern with a clear sign bit and an exponent field that is not all ones is a nonnegative real. -/
theorem f32_nonneg_real (b : BitVec 32) (hs : (b.extractLsb' (8 + 23) 1 == 1#1) = false)
    (he : ¬ (b.extractLsb' 23 8).toNat = 2 ^ 8 - 1) :
    0 ≤ Ideal.ofBits .f32 b ∧ Ideal.ofBits .f32 b ≠ ⊤ := by
  unfold Ideal.ofBits Ideal.ieee
  simp only [hs, he, if_false, Bool.false_eq_true]
  split_ifs
  · exact ⟨EReal.coe_nonneg.mpr (by positivity), EReal.coe_ne_top _⟩
  · exact ⟨EReal.coe_nonneg.mpr (by positivity), EReal.coe_ne_top _⟩

theorem cScale_nonneg : 0 ≤ cScale := (f32_nonneg_real _ (by decide) (by decide)).1
theorem cScale_ne_top : cScale ≠ ⊤ := (f32_nonneg_real _ (by decide) (by decide)).2
theorem cGain_nonneg : 0 ≤ cGain := (f32_nonneg_real _ (by decide) (by decide)).1
theorem cGain_ne_top : cGain ≠ ⊤ := (f32_nonneg_real _ (by decide) (by decide)).2

/-- The scale moves across the difference of any two extended reals. -/
theorem scale_sub (p w : EReal) : (p - w) * cScale = p * cScale - w * cScale :=
  EReal.sub_mul_of_nonneg_of_ne_top cScale_nonneg cScale_ne_top

/-- The gain moves across a finite sum of any extended reals. -/
theorem gain_sum {ι : Type*} (s : Finset ι) (f : ι → EReal) : cGain * ∑ k ∈ s, f k = ∑ k ∈ s, cGain * f k := by
  classical
  induction s using Finset.induction_on with
  | empty => simp
  | insert a s ha ih =>
    rw [Finset.sum_insert ha, Finset.sum_insert ha, EReal.left_distrib_of_nonneg_of_ne_top cGain_nonneg cGain_ne_top, ih]

/-- A sum over nine indices, written out from the left starting at zero. -/
theorem sum_nine (g : Fin 9 → EReal) :
    ∑ b, g b = ((((((((0 + g 0) + g 1) + g 2) + g 3) + g 4) + g 5) + g 6) + g 7) + g 8 := by
  simp only [Fin.sum_univ_castSucc, Fin.sum_univ_zero]
  rfl

/-- Block `c` of sixteen consecutive contraction indices. -/
def blockSum (f : Fin (9 * 16) → EReal) (c : Fin 9) : EReal := ∑ r : Fin 16, f ⟨c.val * 16 + r.val, BlockSum.pos_lt c r⟩

/-- The kernel's order of summation against the reference's: nine blocks added one after the other onto zero and then
    scaled by the gain, against zero plus the sum of the 144 scaled contributions. -/
theorem gain_blocks (f : Fin (9 * 16) → EReal) :
    cGain * (((((((((0 + blockSum f 0) + blockSum f 1) + blockSum f 2) + blockSum f 3) + blockSum f 4) + blockSum f 5)
        + blockSum f 6) + blockSum f 7) + blockSum f 8)
      = 0 + ∑ k : Fin (9 * 16), cGain * f k := by
  rw [← gain_sum, BlockSum.sum_fin_blocks 9 16 f, zero_add (cGain * _)]
  exact congrArg (cGain * ·) (sum_nine (blockSum f)).symm

end Cert.Ekv

end
-- ==== Proof.KernelIdeal.Chunk.lean ====
/-
  The kernel body's arithmetic over the extended reals, entry by entry: one chunk of sixteen contraction indices adds
  sixteen diode contributions to the accumulator; the nine chunks are the same function; the accumulator starts at
  zero and the output block is the gain times it.
-/
import proofs.«173415_j27144193310998_2_alg».proof.Proof.Gen.KernelIdeal.Skeleton
import proofs.«173415_j27144193310998_2_alg».proof.Proof.DiodeSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- The row-sum's index: entry (o, l) of the reduced array sums the entries (o, r, l). -/
theorem lift_ix (o : Fin 64) (r : Fin 16) (l : Fin 1024) :
    reduces_S64x16x1024_S64x1024.lift (ix2 o l) r = ix3 o r l := by
  funext a
  match a with
  | ⟨0, _⟩ => rfl
  | ⟨1, _⟩ => rfl
  | ⟨2, _⟩ => rfl

/-- One chunk of the accumulation, entry by entry: sixteen weights `th` [64, 16, 1] and sixteen patch rows `p` [1, 16, 1024]
    add to the accumulator, at (o, l), the sixteen contributions diode(p[r, l] * s - th[o, r]). -/
theorem chunk_apply (th : Vec Ideal S64x16x1 .f32) (p : Vec Ideal S1x16x1024 .f32) (acc : Vec Ideal S64x1024 .f32)
    (o : Fin 64) (l : Fin 1024) :
    k0_pay4 (F := Ideal) th p acc (ix2 o l)
      = acc (ix2 o l) + ∑ r : Fin 16, Ekv.diode (p (ix3 0 r l) * Ekv.cScale - th (ix3 o r 0)) := by
  unfold k0_pay4
  dsimp only
  rw [addf_apply]
  refine congrArg (acc (ix2 o l) + ·) ?_
  refine (Ideal.multiReduction_add_single _ 0x00000000#32 reduces_S64x16x1024_S64x1024 _ _ (ix2 o l)).trans ?_
  refine Finset.sum_congr rfl fun (r : Fin 16) _ => ?_
  refine (congrArg _ (lift_ix o r l)).trans ?_
  have eP : ∀ (x : S1x16x1024.Idx → EReal) h, broadcastTo S64x16x1024 x h (ix3 o r l) = x (ix3 0 r l) :=
    fun x h => broadcastTo_apply x h _ _ (fun a => by match a with | ⟨0, _⟩ => rfl | ⟨1, _⟩ => rfl | ⟨2, _⟩ => rfl)
  have eT : ∀ (x : S64x16x1.Idx → EReal) h, broadcastTo S64x16x1024 x h (ix3 o r l) = x (ix3 o r 0) :=
    fun x h => broadcastTo_apply x h _ _ (fun a => by match a with | ⟨0, _⟩ => rfl | ⟨1, _⟩ => rfl | ⟨2, _⟩ => rfl)
  simp only [subf_apply, mulf_apply, maximumf_apply, minimumf_apply, broadcast_apply, Idealize.ShloMosaic.log1p,
    Idealize.ShloMosaic.exp, eP, eT, shapeCast_self, shapeCast_ab_1ab_apply, shapeCast_1ab_ab_apply,
    Ideal.log1p_def, Ideal.exp_def, Ideal.ofBits_def]
  rfl

/-! ## The nine chunks are one function

The printed body is cut into parts at arbitrary places, so the nine chunks' arithmetic arrives as nine differently cut
compositions of payloads; each is the first chunk's function of its own weights, patch rows and accumulator (the
accumulator's store also passes through a cast of [64, 1024] to itself, the identity). -/

section AnyFloat

variable {F : FTy → Type} [FloatOps F]

theorem cast_acc (v : FVec F S64x1024 .f32) : k0_pay5 v = v := by
  unfold k0_pay5; exact shapeCast_self _ _

theorem chunk1_eq (a : Vec F S64x16x1 .f32) (b : Vec F S1x16x1024 .f32) (acc : Vec F S64x1024 .f32) :
    k0_pay6 a b acc = k0_pay4 a b acc := by
  unfold k0_pay6 k0_pay4; dsimp only; simp only [shapeCast_self]

theorem chunk2_eq (a : Vec F S64x16x1 .f32) (b : Vec F S1x16x1024 .f32) (acc : Vec F S64x1024 .f32) :
    k0_pay7 a b acc = k0_pay4 a b acc := by
  unfold k0_pay7 k0_pay4; dsimp only; simp only [shapeCast_self]

theorem chunk3_eq (a : Vec F S64x16x1 .f32) (b : Vec F S1x16x1024 .f32) (acc : Vec F S64x1024 .f32) :
    k0_pay8 a b acc = k0_pay4 a b acc := by
  unfold k0_pay8 k0_pay4; dsimp only; simp only [shapeCast_self]

theorem chunk4_eq (a : Vec F S64x16x1 .f32) (b : Vec F S1x16x1024 .f32) (acc : Vec F S64x1024 .f32) :
    k0_pay10 (k0_pay9 a) b acc = k0_pay4 a b acc := by
  unfold k0_pay10 k0_pay9 k0_pay4; dsimp only; simp only [shapeCast_self]

theorem chunk5_eq (a : Vec F S64x16x1 .f32) (b : Vec F S1x16x1024 .f32) (acc : Vec F S64x1024 .f32) :
    k0_pay14 (k0_pay11 a) (k0_pay12 b) k0_pay13 acc = k0_pay4 a b acc := by
  unfold k0_pay14 k0_pay11 k0_pay12 k0_pay13 k0_pay4; dsimp only; simp only [shapeCast_self]

theorem chunk6_eq (a : Vec F S64x16x1 .f32) (b : Vec F S1x16x1024 .f32) (acc : Vec F S64x1024 .f32) :
    k0_pay16 (k0_pay15 a b) acc = k0_pay4 a b acc := by
  unfold k0_pay16 k0_pay15 k0_pay4; dsimp only; simp only [shapeCast_self]

theorem chunk7_eq (a : Vec F S64x16x1 .f32) (b : Vec F S1x16x1024 .f32) (acc : Vec F S64x1024 .f32) :
    k0_pay20 (k0_pay17 a b) (k0_pay18 a b) k0_pay19 acc = k0_pay4 a b acc := by
  unfold k0_pay20 k0_pay18 k0_pay17 k0_pay19 k0_pay4; dsimp only; simp only [shapeCast_self]

theorem chunk8_eq (a : Vec F S64x16x1 .f32) (b : Vec F S1x16x1024 .f32) (acc : Vec F S64x1024 .f32) :
    k0_pay1 (k0_pay21 a b) (k0_pay22 a b) k0_pay23 acc = k0_pay4 a b acc := by
  unfold k0_pay1 k0_pay22 k0_pay21 k0_pay23 k0_pay4; dsimp only; simp only [shapeCast_self]

end AnyFloat

/-- The accumulator starts at zero. -/
theorem zero_apply (o : Fin 64) (l : Fin 1024) : k0_pay3 (F := Ideal) (ix2 o l) = 0 := by
  unfold k0_pay3
  simp only [shapeCast_self, broadcast_apply, Ideal.ofBits_def, Ideal.ofBits_zero_f32]

/-- The output block is the gain times the accumulator. -/
theorem gain_apply (v : Vec Ideal S64x1024 .f32) (o : Fin 64) (l : Fin 1024) :
    k0_pay2 (F := Ideal) v (ix3 0 o l) = Ekv.cGain * v (ix2 o l) := by
  unfold k0_pay2
  simp only [shapeCast_ab_1ab_apply, mulf_apply, broadcast_apply, Ideal.ofBits_def]
  rfl

end Cert.KernelIdeal.Hand

end
-- ==== Proof.KernelIdeal.BlockValue.lean ====
/-
  The output block the body leaves, entry by entry over the extended reals, as a function of the weight block and the
  patch block it was handed: the gain times the nine chunks' sums added one after the other onto zero. The body's run
  recorded the accumulator's contents after each store as a list of stores; a load of the whole accumulator after a
  store of the whole accumulator reads that store's value, so the ten reads unwind one by one.
-/
import proofs.«173415_j27144193310998_2_alg».proof.Proof.KernelIdeal.Region
import proofs.«173415_j27144193310998_2_alg».proof.Proof.KernelIdeal.Chunk

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after a last store of the whole buffer reads what was stored, whatever was stored before. -/
theorem readCov_whole_last {sig : RefSig} {κ : Kind} {sp : Space} {S : Shape} {e : EltTy} (v : View sig κ sp S e)
    {off : Fin S.rank → Nat} (h : off = fun _ => 0) (inb : ∀ a, off a + S.size a ≤ S.size a)
    (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Sixteen consecutive rows of the weight block, read at (o, r, 0): row k + r of the block. -/
theorem ld_weights (x0 : Vec Ideal S64x144x1 .f32) (k : ℕ)
    (inb : ∀ a, (![0, k, 0] : Fin 3 → ℕ) a + S64x16x1.size a ≤ S64x144x1.size a) (o : Fin 64) (r : Fin 16) (hk : k + r.val < 144) :
    View.ld x0 (Rect.unit ![0, k, 0] S64x16x1.size inb) (ix3 o r 0) = x0 (ix3 o ⟨k + r.val, hk⟩ 0) := by
  show x0 _ = x0 _
  refine congrArg x0 (funext fun a => Fin.ext ?_)
  match a with
  | ⟨0, _⟩ => show 0 + 1 * o.val = o.val; omega
  | ⟨1, _⟩ => show k + 1 * r.val = k + r.val; omega
  | ⟨2, _⟩ => rfl

/-- Sixteen consecutive rows of the patch block, read at (0, r, l): row k + r of the block. -/
theorem ld_patches (x1 : Vec Ideal S1x144x1024 .f32) (k : ℕ)
    (inb : ∀ a, (![0, k, 0] : Fin 3 → ℕ) a + S1x16x1024.size a ≤ S1x144x1024.size a) (r : Fin 16) (l : Fin 1024) (hk : k + r.val < 144) :
    View.ld x1 (Rect.unit ![0, k, 0] S1x16x1024.size inb) (ix3 0 r l) = x1 (ix3 0 ⟨k + r.val, hk⟩ l) := by
  show x1 _ = x1 _
  refine congrArg x1 (funext fun a => Fin.ext ?_)
  match a with
  | ⟨0, _⟩ => rfl
  | ⟨1, _⟩ => show k + 1 * r.val = k + r.val; omega
  | ⟨2, _⟩ => show 0 + 1 * l.val = l.val; omega

/-- Contraction index k's contribution to entry (o, l) of the block. -/
def contrib (x0 : Vec Ideal S64x144x1 .f32) (x1 : Vec Ideal S1x144x1024 .f32) (o : Fin 64) (l : Fin 1024) (k : Fin (9 * 16)) : EReal :=
  Ekv.diode (x1 (ix3 0 (⟨k.val, k.isLt⟩ : Fin 144) l) * Ekv.cScale - x0 (ix3 o (⟨k.val, k.isLt⟩ : Fin 144) 0))

/-- Chunk n, fed rows 16 n .. 16 n + 15 of the two blocks, adds block n of the contributions to the accumulator. -/
theorem chunk_step (x0 : Vec Ideal S64x144x1 .f32) (x1 : Vec Ideal S1x144x1024 .f32) (n : Fin 9) (k : ℕ) (hk : k = n.val * 16)
    (inb0 : ∀ a, (![0, k, 0] : Fin 3 → ℕ) a + S64x16x1.size a ≤ S64x144x1.size a)
    (inb1 : ∀ a, (![0, k, 0] : Fin 3 → ℕ) a + S1x16x1024.size a ≤ S1x144x1024.size a)
    (acc : Vec Ideal S64x1024 .f32) (o : Fin 64) (l : Fin 1024) :
    k0_pay4 (F := Ideal) (View.ld x0 (Rect.unit ![0, k, 0] S64x16x1.size inb0)) (View.ld x1 (Rect.unit ![0, k, 0] S1x16x1024.size inb1)) acc (ix2 o l)
      = acc (ix2 o l) + Ekv.blockSum (contrib x0 x1 o l) n := by
  subst hk
  rw [chunk_apply]
  refine congrArg (acc (ix2 o l) + ·) (Finset.sum_congr rfl fun r _ => ?_)
  have hlt : n.val * 16 + r.val < 144 := by have := n.isLt; have := r.isLt; omega
  rw [ld_weights x0 _ inb0 o r hlt, ld_patches x1 _ inb1 r l hlt]
  rfl

section Reads

variable (c : Dev nD)
  (a1 : Memref sig .tc .vmem S64x144x1 .f32) (h1 : a1.IsWhole) (a2 : Memref sig .tc .vmem S1x144x1024 .f32) (h2 : a2.IsWhole)
  (a4 : Memref sig .tc .vmem S64x1024 .f32)
  (x0 : Vec Ideal S64x144x1 .f32) (x1 : Vec Ideal S1x144x1024 .f32) (o : Fin 64) (l : Fin 1024)

/-- The first read of the accumulator, after it was zeroed. -/
theorem v32_apply : bodyRun.sl.v32 (F := Ideal) c a4 (ix2 o l) = 0 := by
  unfold bodyRun.sl.v32 bodyRun.sl.H3_1
  rw [readCov_whole_last _ hz2, zero_apply]

theorem v69_apply : bodyRun.sl.v69 c a1 h1 a2 h2 a4 x0 x1 (ix2 o l)
    = bodyRun.sl.v32 (F := Ideal) c a4 (ix2 o l) + Ekv.blockSum (contrib x0 x1 o l) 0 := by
  unfold bodyRun.sl.v69 bodyRun.sl.H3_2
  rw [readCov_whole_last _ hz2, cast_acc]
  unfold bodyRun.sl.r
  simp only [View.readAt_eq_ld, h1.read_unread, h2.read_unread]
  exact chunk_step x0 x1 0 0 rfl _ _ _ o l

theorem v106_apply : bodyRun.sl.v106 c a1 h1 a2 h2 a4 x0 x1 (ix2 o l)
    = bodyRun.sl.v69 c a1 h1 a2 h2 a4 x0 x1 (ix2 o l) + Ekv.blockSum (contrib x0 x1 o l) 1 := by
  unfold bodyRun.sl.v106 bodyRun.sl.H3_3
  rw [readCov_whole_last _ hz2]
  rw [chunk1_eq]
  simp only [View.readAt_eq_ld, h1.read_unread, h2.read_unread]
  exact chunk_step x0 x1 1 16 rfl _ _ _ o l

theorem v143_apply : bodyRun.sl.v143 c a1 h1 a2 h2 a4 x0 x1 (ix2 o l)
    = bodyRun.sl.v106 c a1 h1 a2 h2 a4 x0 x1 (ix2 o l) + Ekv.blockSum (contrib x0 x1 o l) 2 := by
  unfold bodyRun.sl.v143 bodyRun.sl.H3_4
  rw [readCov_whole_last _ hz2]
  rw [chunk2_eq]
  simp only [View.readAt_eq_ld, h1.read_unread, h2.read_unread]
  exact chunk_step x0 x1 2 32 rfl _ _ _ o l

theorem v180_apply : bodyRun.sl.v180 c a1 h1 a2 h2 a4 x0 x1 (ix2 o l)
    = bodyRun.sl.v143 c a1 h1 a2 h2 a4 x0 x1 (ix2 o l) + Ekv.blockSum (contrib x0 x1 o l) 3 := by
  unfold bodyRun.sl.v180 bodyRun.sl.H3_5
  rw [readCov_whole_last _ hz2]
  rw [chunk3_eq]
  simp only [View.readAt_eq_ld, h1.read_unread, h2.read_unread]
  exact chunk_step x0 x1 3 48 rfl _ _ _ o l

theorem v217_apply : bodyRun.sl.v217 c a1 h1 a2 h2 a4 x0 x1 (ix2 o l)
    = bodyRun.sl.v180 c a1 h1 a2 h2 a4 x0 x1 (ix2 o l) + Ekv.blockSum (contrib x0 x1 o l) 4 := by
  unfold bodyRun.sl.v217 bodyRun.sl.H3_6
  rw [readCov_whole_last _ hz2]
  unfold bodyRun.sl.r_1
  rw [chunk4_eq]
  simp only [View.readAt_eq_ld, h1.read_unread, h2.read_unread]
  exact chunk_step x0 x1 4 64 rfl _ _ _ o l

theorem v254_apply : bodyRun.sl.v254 c a1 h1 a2 h2 a4 x0 x1 (ix2 o l)
    = bodyRun.sl.v217 c a1 h1 a2 h2 a4 x0 x1 (ix2 o l) + Ekv.blockSum (contrib x0 x1 o l) 5 := by
  unfold bodyRun.sl.v254 bodyRun.sl.H3_7
  rw [readCov_whole_last _ hz2]
  unfold bodyRun.sl.r_2 bodyRun.sl.r_3
  rw [chunk5_eq]
  simp only [View.readAt_eq_ld, h1.read_unread, h2.read_unread]
  exact chunk_step x0 x1 5 80 rfl _ _ _ o l

theorem v291_apply : bodyRun.sl.v291 c a1 h1 a2 h2 a4 x0 x1 (ix2 o l)
    = bodyRun.sl.v254 c a1 h1 a2 h2 a4 x0 x1 (ix2 o l) + Ekv.blockSum (contrib x0 x1 o l) 6 := by
  unfold bodyRun.sl.v291 bodyRun.sl.H3_8
  rw [readCov_whole_last _ hz2]
  unfold bodyRun.sl.r_4
  rw [chunk6_eq]
  simp only [View.readAt_eq_ld, h1.read_unread, h2.read_unread]
  exact chunk_step x0 x1 6 96 rfl _ _ _ o l

theorem v328_apply : bodyRun.sl.v328 c a1 h1 a2 h2 a4 x0 x1 (ix2 o l)
    = bodyRun.sl.v291 c a1 h1 a2 h2 a4 x0 x1 (ix2 o l) + Ekv.blockSum (contrib x0 x1 o l) 7 := by
  unfold bodyRun.sl.v328 bodyRun.sl.H3_9
  rw [readCov_whole_last _ hz2]
  unfold bodyRun.sl.r_5 bodyRun.sl.r_6
  rw [chunk7_eq]
  simp only [View.readAt_eq_ld, h1.read_unread, h2.read_unread]
  exact chunk_step x0 x1 7 112 rfl _ _ _ o l

theorem v337_apply : bodyRun.sl.v337 c a1 h1 a2 h2 a4 x0 x1 (ix2 o l)
    = bodyRun.sl.v328 c a1 h1 a2 h2 a4 x0 x1 (ix2 o l) + Ekv.blockSum (contrib x0 x1 o l) 8 := by
  unfold bodyRun.sl.v337 bodyRun.sl.H3_10
  rw [readCov_whole_last _ hz2]
  unfold bodyRun.sl.r_7 bodyRun.sl.r_8
  rw [chunk8_eq]
  simp only [View.readAt_eq_ld, h1.read_unread, h2.read_unread]
  exact chunk_step x0 x1 8 128 rfl _ _ _ o l

end Reads

/-- THE BLOCK: entry (0, o, l) of what the body leaves in the output block. -/
theorem outBlock_apply (c : Dev nD) (i : grid0.Coords)
    (a1 : Memref sig .tc .vmem S64x144x1 .f32) (h1 : a1.IsWhole) (a2 : Memref sig .tc .vmem S1x144x1024 .f32) (h2 : a2.IsWhole)
    (a3 : Memref sig .tc .vmem S1x64x1024 .f32) (h3 : a3.IsWhole) (a4 : Memref sig .tc .vmem S64x1024 .f32) (h4 : a4.IsWhole)
    (x0 : Vec Ideal S64x144x1 .f32) (x1 : Vec Ideal S1x144x1024 .f32) (o : Fin 64) (l : Fin 1024) :
    outBlock (F := Ideal) c i a1 h1 a2 h2 a3 h3 a4 h4 x0 x1 (ix3 0 o l)
      = (0 : EReal) + ∑ k : Fin (9 * 16), Ekv.cGain * contrib x0 x1 o l k := by
  unfold outBlock
  rw [View.read_writes_eq_canon _ _ _ (out_cover c i a1 h1 a2 h2 a3 h3 a4 h4 x0 x1)]
  unfold bodyRun
  dsimp only
  rw [View.canon_unit_zero hz3, gain_apply]
  rw [v337_apply, v328_apply, v291_apply, v254_apply, v217_apply, v180_apply, v143_apply, v106_apply, v69_apply, v32_apply]
  exact Ekv.gain_blocks (contrib x0 x1 o l)

end Cert.KernelIdeal.Hand

end
-- ==== Proof.KernelIdeal.ArrayValue.lean ====
/-
  The idealized kernel program's result as one function of its two arguments, over the extended reals.

  Grid point t writes back image t of the result array, and what it writes is the body's output block of the weights'
  whole array and image t's patch block; the eight blocks cover the array, so the array after the region is one
  function, entry by entry, of the patch array and the scaled weights the region found. The host lines before the
  region make those two from the arguments (the patch array by exactly the lines the reference program uses, so it is
  carried as the reference's own stage and never opened), and the line after the region views the result
  [8, 64, 32, 32].
-/
import proofs.«173415_j27144193310998_2_alg».proof.Proof.KernelIdeal.BlockValue
import proofs.«173415_j27144193310998_2_alg».proof.Proof.Gen.ReferenceIdeal.Read
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry (b, o, l) of the region's result, from the patch array and the scaled weights: zero plus the 144 scaled contributions. -/
def entry (Pt : S8x144x1024.Idx → EReal) (W : S64x144x1.Idx → EReal) (b : Fin 8) (o : Fin 64) (l : Fin 1024) : EReal :=
  (0 : EReal) + ∑ k : Fin (9 * 16), Ekv.cGain
    * Ekv.diode (Pt (ix3 b (⟨k.val, k.isLt⟩ : Fin 144) l) * Ekv.cScale - W (ix3 o (⟨k.val, k.isLt⟩ : Fin 144) 0))

/-- The region's result array [8, 64, 1024]. -/
def resultArr (Pt : S8x144x1024.Idx → EReal) (W : S64x144x1.Idx → EReal) : S8x64x1024.Idx → EReal :=
  fun i => entry Pt W ⟨(i 0).val, (i 0).isLt⟩ ⟨(i 1).val, (i 1).isLt⟩ ⟨(i 2).val, (i 2).isLt⟩

/-- The output block at any of its indices. -/
theorem outBlock_at (c : Dev nD) (i : grid0.Coords)
    (a1 : Memref sig .tc .vmem S64x144x1 .f32) (h1 : a1.IsWhole) (a2 : Memref sig .tc .vmem S1x144x1024 .f32) (h2 : a2.IsWhole)
    (a3 : Memref sig .tc .vmem S1x64x1024 .f32) (h3 : a3.IsWhole) (a4 : Memref sig .tc .vmem S64x1024 .f32) (h4 : a4.IsWhole)
    (x0 : Vec Ideal S64x144x1 .f32) (x1 : Vec Ideal S1x144x1024 .f32) (y : S1x64x1024.Idx) :
    outBlock (F := Ideal) c i a1 h1 a2 h2 a3 h3 a4 h4 x0 x1 y
      = (0 : EReal) + ∑ k : Fin (9 * 16), Ekv.cGain * contrib x0 x1 (⟨(y 1).val, (y 1).isLt⟩ : Fin 64) (⟨(y 2).val, (y 2).isLt⟩ : Fin 1024) k := by
  have hy : y = ix3 (0 : Fin 1) (⟨(y 1).val, (y 1).isLt⟩ : Fin 64) (⟨(y 2).val, (y 2).isLt⟩ : Fin 1024) := by
    funext a
    match a with
    | ⟨0, _⟩ => exact Subsingleton.elim (α := Fin 1) _ _
    | ⟨1, _⟩ => rfl
    | ⟨2, _⟩ => rfl
  conv_lhs => rw [hy]
  exact outBlock_apply c i a1 h1 a2 h2 a3 h3 a4 h4 x0 x1 _ _

/-- Where the three windows' blocks sit at grid point t: the weights' block is the whole array, the patches' and the
    output's block is image t. -/
theorem block_places : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What grid point t writes back is block t of the result array of the region-entry patch array and scaled weights. -/
theorem flushed_eq (c : Dev nD) (t : Fin cfg0.N) :
    (dats m 0 c).flushed 2 t
      = ((cfg0.win 2).blk t).view.read (Elt Ideal) (resultArr (V m c main_v20) (V m c main_v23)) := by
  show (cfg0.win 2).cut (grid0.coords t) ((dats m 0 c).after 2 t) = _
  rw [after2]
  obtain ⟨p0, p1, p2, q0, q1, q2, r0, r1, r2⟩ := block_places t
  funext j
  refine (outBlock_at c _ _ _ _ _ _ _ _ _ _ _ j).trans ?_
  show _ = resultArr (V m c main_v20) (V m c main_v23) (((cfg0.win 2).blk t).view.emb j)
  unfold resultArr entry
  refine congrArg ((0 : EReal) + ·) (Finset.sum_congr rfl fun k _ => ?_)
  unfold contrib
  have hj0 : (j 0).val < 1 := (j 0).isLt
  have hP : iblk m c 1 t (ix3 (0 : Fin 1) (⟨k.val, k.isLt⟩ : Fin 144) (⟨(j 2).val, (j 2).isLt⟩ : Fin 1024))
      = V m c main_v20 (ix3 (⟨((((cfg0.win 2).blk t).view.emb j) 0).val, ((((cfg0.win 2).blk t).view.emb j) 0).isLt⟩ : Fin 8) (⟨k.val, k.isLt⟩ : Fin 144)
          (⟨((((cfg0.win 2).blk t).view.emb j) 2).val, ((((cfg0.win 2).blk t).view.emb j) 2).isLt⟩ : Fin 1024)) := by
    unfold iblk
    rw [View.read_apply]
    show V m c main_v20 _ = V m c main_v20 _
    refine congrArg (V m c main_v20) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 144 + 1 * k.val = k.val; omega
    | ⟨2, _⟩ => show win0_1.index t (2 : Fin 3) * 1024 + 1 * (j 2).val = win0_2.index t (2 : Fin 3) * 1024 + 1 * (j 2).val; omega
  have hW : iblk m c 0 t (ix3 (⟨(j 1).val, (j 1).isLt⟩ : Fin 64) (⟨k.val, k.isLt⟩ : Fin 144) (0 : Fin 1))
      = V m c main_v23 (ix3 (⟨((((cfg0.win 2).blk t).view.emb j) 1).val, ((((cfg0.win 2).blk t).view.emb j) 1).isLt⟩ : Fin 64) (⟨k.val, k.isLt⟩ : Fin 144) (0 : Fin 1)) := by
    unfold iblk
    rw [View.read_apply]
    show V m c main_v23 _ = V m c main_v23 _
    refine congrArg (V m c main_v23) (funext fun a => Fin.ext ?_)
    match a with
    | ⟨0, _⟩ => show win0_0.index t (0 : Fin 3) * 64 + 1 * (j 1).val = win0_2.index t (1 : Fin 3) * 64 + 1 * (j 1).val; omega
    | ⟨1, _⟩ => show win0_0.index t (1 : Fin 3) * 144 + 1 * k.val = k.val; omega
    | ⟨2, _⟩ => show win0_0.index t (2 : Fin 3) * 1 + 1 * 0 = 0; omega
  rw [hP, hW]

/-- An index of the result array is in grid point t's block iff each coordinate is in the block's range on its axis. -/
theorem mem_blk (t : Fin cfg0.N) (i : S8x64x1024.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v24).slice (win0_2.rect t)).set ↔ _
  rw [View.set_slice_whole, Rect.mem_set_unit]
  exact Iff.rfl

/-- Every index of the result array is written back: image b at grid point b. -/
theorem covered (i : S8x64x1024.Idx) :
    ∃ t : Fin cfg0.N, (cfg0.win 2).flush t = true ∧ i ∈ ((cfg0.win 2).blk t).view.set := by
  have hN : cfg0.N = 8 := N_0
  have hi0 : (i 0).val < 8 := (i 0).isLt
  have hi1 : (i 1).val < 64 := (i 1).isLt
  have hi2 : (i 2).val < 1024 := (i 2).isLt
  refine ⟨⟨(i 0).val, by omega⟩, flush0_2 _, ?_⟩
  rw [mem_blk]
  obtain ⟨-, -, -, -, -, -, r0, r1, r2⟩ := block_places ⟨(i 0).val, by omega⟩
  intro a
  match a with
  | ⟨0, _⟩ =>
    show win0_2.index _ (0 : Fin 3) * 1 ≤ (i 0).val ∧ (i 0).val < win0_2.index _ (0 : Fin 3) * 1 + 1
    rw [r0]; dsimp only; omega
  | ⟨1, _⟩ =>
    show win0_2.index _ (1 : Fin 3) * 64 ≤ (i 1).val ∧ (i 1).val < win0_2.index _ (1 : Fin 3) * 64 + 64
    rw [r1]; omega
  | ⟨2, _⟩ =>
    show win0_2.index _ (2 : Fin 3) * 1024 ≤ (i 2).val ∧ (i 2).val < win0_2.index _ (2 : Fin 3) * 1024 + 1024
    rw [r2]; omega

/-- So after the region its result array is `resultArr` of the region-entry patch array and scaled weights. -/
theorem region_result (c : Dev nD) :
    (dats m 0 c).arrAt 2 cfg0.N = resultArr (V m c main_v20) (V m c main_v23) :=
  (dats m 0 c).arrAt_eq_of_cover 2 (resultArr (V m c main_v20) (V m c main_v23)) (fun t _ => flushed_eq m c t) covered

/-! ## The host lines: what the region finds, and what the last line makes of its result -/

/-- The scaled weights the region finds: the weights times the scale, viewed [64, 144, 1]. -/
theorem weights_found (c : Dev nD) :
    (V m c main_v23 : S64x144x1.Idx → EReal)
      = shapeCast S64x144x1 (mulf (m ((c : Thread nD τ).loc main_arg1))
          (broadcastInDim S64x144 ![] bcast_S_S64x144 (constant (F := Ideal) S_ .f32 0x41CD20D2#32))) shapeCasts_S64x144_S64x144x1 := by
  dsimp only [V, V0]
  simp only [hostOps0, hostOps0_1, hostOps0_2, List.flatten_cons, List.flatten_nil, List.append_nil, List.cons_append, List.nil_append]
  after_results
  rfl

/-- The patch array the region finds: the same host lines' composite that the reference program builds. -/
theorem patches_found (c : Dev nD) :
    (V m c main_v20 : S8x144x1024.Idx → EReal)
      = Cert.ReferenceIdeal.Read.val_main_v20 (F := Ideal) (m ((c : Thread nD τ).loc main_arg0)) := by
  dsimp only [V, V0]
  simp only [hostOps0, hostOps0_1, hostOps0_2, List.flatten_cons, List.flatten_nil, List.append_nil, List.cons_append, List.nil_append]
  after_results
  rfl

/-- The program's result: the region's result array viewed [8, 64, 32, 32]. -/
theorem program_result (c : Dev nD) :
    Pipeline.afterTail₀ cfgs (dats m) 0 (V0 m) [hostOps1] c main_v25
      = shapeCast S8x64x32x32 (resultArr (V m c main_v20) (V m c main_v23)) shapeCasts_S8x64x1024_S8x64x32x32 := by
  unfold Pipeline.afterTail₀
  show StableHlo.after hostOps1 _ (Proc.devRef .tc main_v25) = _
  after_results
  rw [show Pipeline.withArrays (cfgs 0).spec c (V0 m c) (fun w => (dats m 0 c).arrAt w (cfgs 0).N) (Proc.tc.devRef main_v24)
      = resultArr (V m c main_v20) (V m c main_v23)
    from (Pipeline.withArrays_arr spec0 launch0.win.arr_inj c _ _ 2).trans (region_result m c)]
  rfl

/-! ## The run, read -/

/-- The scaled weights as the program's first host lines build them from the second argument. -/
abbrev scaledWeights (w : S64x144.Idx → EReal) : S64x144x1.Idx → EReal :=
  shapeCast S64x144x1 (mulf (F := Ideal) w
    (broadcastInDim S64x144 ![] bcast_S_S64x144 (constant (F := Ideal) S_ .f32 0x41CD20D2#32))) shapeCasts_S64x144_S64x144x1

/-- Every weakly fair execution of the idealized kernel program terminates with its result at the [8, 64, 32, 32] view of
    `resultArr` of the patch array of the first argument and the scaled weights of the second, both arguments unchanged. -/
theorem run : θ_run defs (onTc (τ := τ) (main (F := Ideal))) ⟨m, fun _ => 0, ρ⟩ fun r => ∀ c : Dev nD,
      r.2.mem ((c.tc : Thread nD τ).loc main_v25)
        = shapeCast S8x64x32x32 (resultArr (Cert.ReferenceIdeal.Read.val_main_v20 (F := Ideal) (m ((c.tc : Thread nD τ).loc main_arg0)))
            (scaledWeights (m ((c.tc : Thread nD τ).loc main_arg1)))) shapeCasts_S8x64x1024_S8x64x32x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v25 (Pipeline.mem_restRefs_of main_v25 (by decide) (by decide))).trans
        ((program_result m c).trans (by rw [patches_found m c, weights_found m c])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.ReferenceEntry.lean ====
/-
  The reference program's [8, 64, 1024] sum, entry by entry over the extended reals: at (b, o, l) it is zero plus, over
  the 144 contraction indices k, the gain times the diode contribution of (patch[b, k, l] - weight[o, k]) * scale, the
  patch array being the reference's own stage for it (the zero-bordered image's nine shifted copies, stacked and
  flattened), which is kept as one function and never opened.
-/
import proofs.«173415_j27144193310998_2_alg».proof.Proof.Gen.ReferenceIdeal.Read
import proofs.«173415_j27144193310998_2_alg».proof.Proof.DiodeSum
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- Entry i = (b, o, l) of the reference's sum. -/
theorem sum_entry (x0 : (⟨S8x16x32x32, .f32⟩ : BufTy).Contents (Elt Ideal)) (x1 : (⟨S64x144, .f32⟩ : BufTy).Contents (Elt Ideal))
    (i : S8x64x1024.Idx) :
    val_main_v41 (F := Ideal) x0 x1 i
      = (0 : EReal) + ∑ k : Fin 144, Ekv.cGain * Ekv.diode
          ((val_main_v20 (F := Ideal) x0 (ix3 (⟨(i 0).val, (i 0).isLt⟩ : Fin 8) k (⟨(i 2).val, (i 2).isLt⟩ : Fin 1024))
            - x1 (ix2 (⟨(i 1).val, (i 1).isLt⟩ : Fin 64) k)) * Ekv.cScale) := by
  rw [val_main_v41_apply]
  have h0 : val_main_cst_6 (F := Ideal) (Shape.Idx.first h_S_) = 0 := Ideal.ofBits_zero_f32
  rw [h0]
  refine congrArg ((0 : EReal) + ·) (Finset.sum_congr rfl fun k _ => ?_)
  have hP : val_main_v23 (F := Ideal) x0 (idx_main_v41 i k)
      = val_main_v20 (F := Ideal) x0 (ix3 (⟨(i 0).val, (i 0).isLt⟩ : Fin 8) k (⟨(i 2).val, (i 2).isLt⟩ : Fin 1024)) := by
    rw [val_main_v23_apply, val_main_v21_apply]
    exact congrArg _ (funext fun a => by match a with | ⟨0, _⟩ => rfl | ⟨1, _⟩ => rfl | ⟨2, _⟩ => rfl)
  have hW : val_main_v24 (F := Ideal) x1 (idx_main_v41 i k) = x1 (ix2 (⟨(i 1).val, (i 1).isLt⟩ : Fin 64) k) := by
    rw [val_main_v24_apply, val_main_v22_apply]
    exact congrArg _ (funext fun a => by match a with | ⟨0, _⟩ => rfl | ⟨1, _⟩ => rfl)
  simp only [val_main_v40_apply, val_main_v39_apply, val_main_cst_5_apply, val_main_v38_apply,
    val_main_v33_apply, val_main_v32_apply, val_main_v31_apply, val_main_v30_apply,
    val_main_call1_v4_apply, val_main_call1_v3_apply, val_main_cst_2_apply,
    val_main_call1_v2_apply, val_main_call1_v1_apply, val_main_call1_v0_apply, val_main_cst_1_apply,
    val_main_v27_apply, val_main_v26_apply, val_main_cst_apply, val_main_v25_apply, hP, hW,
    val_main_v37_apply, val_main_v36_apply, val_main_v35_apply, val_main_v34_apply,
    val_main_call2_v4_apply, val_main_call2_v3_apply, val_main_cst_4_apply,
    val_main_call2_v2_apply, val_main_call2_v1_apply, val_main_call2_v0_apply, val_main_cst_3_apply,
    val_main_v29_apply, val_main_v28_apply, val_main_cst_0_apply,
    Ideal.mulf_def, Ideal.subf_def, Ideal.maximumf_def, Ideal.minimumf_def, Ideal.hostUnary_exp_def,
    Ideal.hostUnary_log1p_def, Ideal.ofBits_def]
  rfl

end Cert.ReferenceIdeal.RefValue

end
-- ==== Proof.Bridge.lean ====
/-
  The two programs compute one array. Entry (b, o, l) of the reference's sum is zero plus the sum over k of
  gain * diode((patch[b, k, l] - weight[o, k]) * scale); the kernel region's is the same with the argument spelt
  patch[b, k, l] * scale - weight[o, k] * scale, the second product read off the scaled weights [64, 144, 1]. The scale is
  a nonnegative real, so it moves across the difference of any two extended reals.
-/
import proofs.«173415_j27144193310998_2_alg».proof.Proof.KernelIdeal.ArrayValue
import proofs.«173415_j27144193310998_2_alg».proof.Proof.ReferenceEntry

set_option maxRecDepth 16384

noncomputable section

namespace Cert.Bridge

open Idealize.ShloMosaic Idealize.ShloMosaic.TcCoe Idealize.SL.Sem
open Idealize.ShloMosaic.ValueIdx

/-- The scaled weights at (o, k, 0): weight (o, k) times the scale. -/
theorem scaledWeights_apply (w : Cert.KernelIdeal.S64x144.Idx → EReal) (o : Fin 64) (k : Fin 144) :
    Cert.KernelIdeal.Hand.scaledWeights w (ix3 o k (0 : Fin 1)) = w (ix2 o k) * Cert.Ekv.cScale := by
  unfold Cert.KernelIdeal.Hand.scaledWeights
  refine (shapeCast_apply _ _ (ix3 o k (0 : Fin 1)) (ix2 o k) ?_).trans rfl
  rw [Shape.rowMajor_val_two, Shape.rowMajor_val_three]
  show o.val * 144 + k.val = (o.val * 144 + k.val) * 1 + 0
  omega

/-- The reference's [8, 64, 1024] sum is the kernel region's result array of the same patch array and the scaled weights. -/
theorem results_agree (x0 : Cert.ReferenceIdeal.S8x16x32x32.Idx → EReal) (x1 : Cert.ReferenceIdeal.S64x144.Idx → EReal) :
    Cert.ReferenceIdeal.Read.val_main_v41 (F := Ideal) x0 x1
      = Cert.KernelIdeal.Hand.resultArr (Cert.ReferenceIdeal.Read.val_main_v20 (F := Ideal) x0) (Cert.KernelIdeal.Hand.scaledWeights x1) := by
  funext i
  rw [Cert.ReferenceIdeal.RefValue.sum_entry]
  unfold Cert.KernelIdeal.Hand.resultArr Cert.KernelIdeal.Hand.entry
  refine congrArg ((0 : EReal) + ·) ?_
  refine Finset.sum_congr rfl fun k _ => ?_
  rw [Cert.Ekv.scale_sub, scaledWeights_apply]

end Cert.Bridge

end
-- ==== Proof.lean ====
/-
  The certificate of the diode convolution layer: a Pallas kernel that, image by image, accumulates over 144 unfolded
  patch rows (nine chunks of sixteen) the contribution soft(a)^2 - soft(a - d)^2 of a = patch * s - weight * s into a
  [64, 1024] scratch and stores the gain times the total, against the jnp reference that forms
  gain * (soft(a)^2 - soft(a - d)^2) of a = (patch - weight) * s on the whole [8, 64, 144, 1024] array and sums over the
  144 rows.

  Frames. Each kernel program is: host lines that build the patch array and the scaled weights, one region over the
  eight images, one host line that views the result [8, 64, 32, 32]. The body is run symbolically once, at a generic grid
  point (Kernel/BodyRun, KernelIdeal/BodyRun), and the launch theorem for a region with host lines before and after it
  gives the run of the whole program (Kernel/Region, KernelIdeal/Region). The reference's frame is its generated run.

  Value, over the extended reals. The output block the body leaves is, entry by entry, the gain times the nine chunk sums
  added onto zero (KernelIdeal/Chunk, KernelIdeal/BlockValue); the eight blocks cover the result array
  (KernelIdeal/ArrayValue). The reference's sum is read entry by entry off its generated stages (ReferenceEntry). The two
  agree (Bridge) because a nonnegative real factor moves across a difference and across a finite sum of extended reals, and a
  sum over 144 indices is the sum of its nine blocks of sixteen (DiodeSum); no finiteness of the inputs is used. The
  patch array is built by the same host lines in both programs and is carried as one function.
-/
import proofs.«173415_j27144193310998_2_alg».proof.Defs
import proofs.«173415_j27144193310998_2_alg».proof.Proof.Gen.Kernel
import proofs.«173415_j27144193310998_2_alg».proof.Proof.Gen.KernelIdeal
import proofs.«173415_j27144193310998_2_alg».proof.Proof.Gen.ReferenceIdeal
import proofs.«173415_j27144193310998_2_alg».proof.Proof.Gen.Pre_finite_inputs
import proofs.«173415_j27144193310998_2_alg».proof.Proof.Gen.ReferenceIdeal.Run
import proofs.«173415_j27144193310998_2_alg».proof.Proof.Gen.ReferenceIdeal.Read
import proofs.«173415_j27144193310998_2_alg».proof.Proof.Kernel.Region
import proofs.«173415_j27144193310998_2_alg».proof.Proof.KernelIdeal.ArrayValue
import proofs.«173415_j27144193310998_2_alg».proof.Proof.ReferenceEntry
import proofs.«173415_j27144193310998_2_alg».proof.Proof.Bridge
import Idealize.ShloMosaic.Adequacy
import Idealize.ShloMosaic.Init

noncomputable section

namespace Cert.Proof

open Idealize.ShloMosaic Idealize.ShloMosaic.TcCoe Idealize.SL.Sem
open Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the [8, 64, 32, 32] view of one array. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2]
  unfold Cert.ReferenceIdeal.Read.val_main_v42
  rw [Cert.Bridge.results_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
